-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x1024 .f32 .bf16
  ∧ IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S16384x1024 .f32) (main_arg1 : FVec F S1024x1024 .f32) (main_arg2 : FVec F S256x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S256x1024, .f32⟩
  | .hbm, ⟨3, _⟩ => ⟨S256x1024, .bf16⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S256x1024, .f32⟩
  | .local _ .vmem, ⟨2, _⟩ => ⟨S256x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S256x1024, .f32⟩
  | .local _ .vmem, ⟨7, _⟩ => ⟨S256x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  packedbf16_S256x1024_S256x1024_0_0 : (Rect.unit (s := S256x1024) ![0, 0] S256x1024.size inb_S256x1024_S256x1024_0_0).PackedRows (EltTy.packing .bf16)
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S256x1024_S256x1024 : S256x1024.ShapeCasts S256x1024
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S256x1024_S1024x1024_S256x1024_1_1_0_0_n_n_wf : DotDims.WF S256x1024 S1024x1024 S256x1024 [1] [1] [0] [0] [] []
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .f32 = 32 ∨ (Rect.block (s := S256x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S16384x1024.size a
  hwx1_4 : ∀ i : grid1.Coords, EltTy.bits .f32 = 32 ∨ (Rect.block (s := S16384x1024) S1024x1024.size (cc1_transform_4 i) (hinb1_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg1) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1024.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S1024x256 : Shape := ⟨2, ![1024, 256]⟩
abbrev S16384x256 : Shape := ⟨2, ![16384, 256]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .i1⟩
  | .hbm, ⟨28, _⟩ => ⟨S_, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .i1⟩
  | .hbm, ⟨39, _⟩ => ⟨S_, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S256x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_cst_6 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  transposes_S256x1024_S1024x256_1_0 : S256x1024.Transposes [1, 0] S1024x256
  bcast_S_S16384x256 : S_.BroadcastsInDim S16384x256 (![] : Fin 0 → Fin S16384x256.rank)
  bcast_S_S1024x256 : S_.BroadcastsInDim S1024x256 (![] : Fin 0 → Fin S1024x256.rank)
  transposes_S1024x256_S256x1024_1_0 : S1024x256.Transposes [1, 0] S256x1024
  bcast_S_S16384x1024 : S_.BroadcastsInDim S16384x1024 (![] : Fin 0 → Fin S16384x1024.rank)
  transposes_S1024x1_S1x1024_1_0 : S1024x1.Transposes [1, 0] S1x1024
  bcast_S1x1024_S16384x1024_0_1 : S1x1024.BroadcastsInDim S16384x1024 (![0, 1] : Fin 2 → Fin S16384x1024.rank)
  dot_S16384x1024_S1024x256_S16384x256_1_0_0_1_n_n_wf : DotDims.WF S16384x1024 S1024x256 S16384x256 [1] [0] [0] [1] [] []
  dot_S1024x1024_S1024x256_S1024x256_1_0_0_1_n_n_wf : DotDims.WF S1024x1024 S1024x256 S1024x256 [1] [0] [0] [1] [] []
  dot_S16384x256_S256x1024_S16384x1024_1_0_0_1_n_n_wf : DotDims.WF S16384x256 S256x1024 S16384x1024 [1] [0] [0] [1] [] []

variable [Facts₀]

def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf

class Facts : Prop extends Facts₀ where

variable [Facts]
-- ==== Proof.Spec.lean ====
/-
  What the hashed-projection product computes, written over the extended reals as functions of matrix rows.

  Rows x_b of X (16384 of them), rows w_q of W (1024) and rows p_k of P (256) all have 1024 entries. A row's
  norm is n(v) = sqrt(sum_i v_i^2) + eps, with eps the value of the word 0x34000000. A projection value s is hashed to
  one bit, code(s) = +1 if s >= 0 and -1 otherwise. The result at (b, q) is

      n(x_b) * n(w_q) * cos(h * (1 - (sum_k code(<x_b, p_k>) * code(<p_k, w_q>)) / 256)),

  h the value of the word 0x3FC90FDB. Two spellings of it are stated. In the first ("K") the projection of x_b is
  the three-term sum <x, p> + <x, p - p> + <x - x, p> and the rows are projected as they are; in the second ("R")
  each row is first divided by its norm, the norm's sum of squares starts from the value of the zero word, and
  the projection of w_q is taken with the row as the left factor. On finite rows the two agree: v - v = 0, and a
  division by a positive norm does not change the sign of a projection.
-/
import Idealize.ShloMosaic.Lib.ValueIdx
import Idealize.ShloMosaic.PureOps.Ideal.Laws

noncomputable section

namespace Cert.Hash

open Idealize.ShloMosaic Idealize.ShloMosaic.ValueIdx

/-- The hash bit of a projection value: the value of the word of 1.0 where it is at least the value of the zero
    word, the value of the word of -1.0 elsewhere. -/
def code (s : EReal) : EReal :=
  Scalar.select (Ideal.cmp .oge s (Ideal.ofBits .f32 0x00000000#32))
    (Ideal.ofBits .f32 0x3F800000#32) (Ideal.ofBits .f32 0xBF800000#32)

/-- A row's norm plus eps: sqrt(sum_i v_i^2) + eps. -/
def rowNorm {n : ℕ} (v : Fin n → EReal) : EReal :=
  Ideal.sqrt (∑ i, v i * v i) + Ideal.ofBits .f32 0x34000000#32

/-- The same with the sum of squares started from the value of the zero word. -/
def rowNormR {n : ℕ} (v : Fin n → EReal) : EReal :=
  Ideal.sqrt (Ideal.ofBits .f32 0x00000000#32 + ∑ i, v i * v i) + Ideal.ofBits .f32 0x34000000#32

/-- The cosine estimate from an agreement count d: cos(h * (1 - d / 256)). -/
def cosEst (d : EReal) : EReal :=
  Ideal.cos (Ideal.ofBits .f32 0x3FC90FDB#32
    * (Ideal.ofBits .f32 0x3F800000#32 - Ideal.div d (Ideal.ofBits .f32 0x43800000#32)))

/-- The three-term projection <x, p> + <x, p - p> + <x - x, p>. -/
def projK {n : ℕ} (x p : Fin n → EReal) : EReal :=
  ((∑ i, x i * p i) + ∑ i, x i * (p i - p i)) + ∑ i, (x i - x i) * p i

/-- Spelling K of the result at (b, q). -/
def outK (X : Fin 16384 → Fin 1024 → EReal) (W : Fin 1024 → Fin 1024 → EReal) (P : Fin 256 → Fin 1024 → EReal)
    (b : Fin 16384) (q : Fin 1024) : EReal :=
  rowNorm (X b) * rowNorm (W q)
    * cosEst (∑ k : Fin 256, code (projK (X b) (P k)) * code (∑ i, P k i * W q i))

/-- Spelling R of the result at (b, q). -/
def outR (X : Fin 16384 → Fin 1024 → EReal) (W : Fin 1024 → Fin 1024 → EReal) (P : Fin 256 → Fin 1024 → EReal)
    (b : Fin 16384) (q : Fin 1024) : EReal :=
  rowNormR (X b) * rowNormR (W q)
    * cosEst (∑ k : Fin 256, code (∑ i, Ideal.div (X b i) (rowNormR (X b)) * P k i)
        * code (∑ i, Ideal.div (W q i) (rowNormR (W q)) * P k i))

/-- The rows of a matrix given as a function of rank-2 indices. -/
def rows {a n : ℕ} (x : (⟨2, ![a, n]⟩ : Shape).Idx → EReal) : Fin a → Fin n → EReal :=
  fun p i => x (ix2 p i)

/-- The hash bits of the rows of W against the rows of P, as a [256, 1024] matrix: entry (k, q) is
    code(<p_k, w_q>). -/
def codesT (w : (⟨2, ![1024, 1024]⟩ : Shape).Idx → EReal) (P : (⟨2, ![256, 1024]⟩ : Shape).Idx → EReal) :
    (⟨2, ![256, 1024]⟩ : Shape).Idx → EReal :=
  fun j => code (∑ i, rows P ⟨(j 0).val, idx2_lt0 j⟩ i * rows w ⟨(j 1).val, idx2_lt1 j⟩ i)

/-- The norms of the rows of W laid out as a [1, 1024] row: entry (0, q) is n(w_q). -/
def wnormRow (w : (⟨2, ![1024, 1024]⟩ : Shape).Idx → EReal) : (⟨2, ![1, 1024]⟩ : Shape).Idx → EReal :=
  fun j => rowNorm (rows w ⟨(j 1).val, idx2_lt1 j⟩)

/-- Spelling K over whole arrays. -/
def arrK (x : (⟨2, ![16384, 1024]⟩ : Shape).Idx → EReal) (w : (⟨2, ![1024, 1024]⟩ : Shape).Idx → EReal)
    (P : (⟨2, ![256, 1024]⟩ : Shape).Idx → EReal) : (⟨2, ![16384, 1024]⟩ : Shape).Idx → EReal :=
  fun j => outK (rows x) (rows w) (rows P) ⟨(j 0).val, idx2_lt0 j⟩ ⟨(j 1).val, idx2_lt1 j⟩

/-- Spelling R over whole arrays. -/
def arrR (x : (⟨2, ![16384, 1024]⟩ : Shape).Idx → EReal) (w : (⟨2, ![1024, 1024]⟩ : Shape).Idx → EReal)
    (P : (⟨2, ![256, 1024]⟩ : Shape).Idx → EReal) : (⟨2, ![16384, 1024]⟩ : Shape).Idx → EReal :=
  fun j => outR (rows x) (rows w) (rows P) ⟨(j 0).val, idx2_lt0 j⟩ ⟨(j 1).val, idx2_lt1 j⟩

end Cert.Hash

end
-- ==== Proof.KernelRun.lean ====
/-
  The idealized two-call program run with its result array named.

  The program is two kernel launches in a row: the first turns W and P into the hash bits of W's rows and the norms of
  W's rows, the second walks X in sixteen blocks of 1024 rows and writes the result. Every weakly fair execution
  terminates without a fault; the three argument arrays end as they were launched, and the result array ends at what the
  second launch's write-backs leave — the fold of its sixteen blocks over the contents the first launch left.
-/
import proofs.«167399_j85538568667753_2_alg».proof.Proof.Gen.KernelIdeal.Frame

set_option maxRecDepth 16384

noncomputable section

namespace Cert.Hash.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array after the run is the second launch's output array after its last block is written back. -/
theorem result_arr (c : Dev nD) :
    W2 m ρ c (Proc.devRef .tc main_v1) = (dat1 (V1 m ρ) c).arrAt 4 cfg1.N :=
  W2_arr m ρ c 4

-- the launch theorem's implicit arguments are found by unifying its conclusion with this statement, which takes
-- unfolding plain definitions in a metavariable's type
set_option backward.isDefEq.respectTransparency.types false in
/-- Every weakly fair execution of the program terminates, nothing faulting; the result array ends at the contents
    the last region boundary holds for it, and the argument arrays end as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Hash.Run

end
-- ==== Proof.FirstLaunch.lean ====
/-
  The first launch's two output arrays as functions of W and P.

  The first launch has a single grid point; each of its four windows is its whole array, so a window's block at that
  point is the array itself, and what the point writes back covers the output array. Its body stores, into the bit
  array, the hash bit of <p_k, w_q> at (k, q), and into the norm row the norm of w_q at (0, q).
-/
import proofs.«167399_j85538568667753_2_alg».proof.Proof.Gen.KernelIdeal.Frame
import proofs.«167399_j85538568667753_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Hash.First

open Cert.KernelIdeal Cert.KernelIdeal.Gen Cert.Hash

variable (V : (c : Dev nD) → (b : Ref sig .tc) → Buf (Elt Ideal) ((c : Thread nD τ).loc b))

theorem hz : (![0, 0] : Fin 2 → Nat) = fun _ => 0 := funext fun a => by fin_cases a <;> rfl

/-- At the launch's one point every window sits at block (0, 0). -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The block of W the body loads is W. -/
theorem blk_w (c : Dev nD) (t : Fin cfg0.N) :
    (iblk0 V c 0 t : Vec Ideal S1024x1024 .f32) = (V c main_arg1 : S1024x1024.Idx → EReal) := by
  obtain ⟨e0, e1, -⟩ := idx_zero t
  funext y
  unfold iblk0
  rw [View.read_apply]
  show (V c main_arg1 : S1024x1024.Idx → EReal) _ = (V c main_arg1 : S1024x1024.Idx → EReal) y
  congr 1
  funext a
  apply Fin.ext
  match a with
  | ⟨0, _⟩ => show win0_0.index t (0 : Fin 2) * 1024 + 1 * (y 0).val = (y 0).val; omega
  | ⟨1, _⟩ => show win0_0.index t (1 : Fin 2) * 1024 + 1 * (y 1).val = (y 1).val; omega

/-- The block of P the body loads is P. -/
theorem blk_p (c : Dev nD) (t : Fin cfg0.N) :
    (iblk0 V c 1 t : Vec Ideal S256x1024 .f32) = (V c main_arg2 : S256x1024.Idx → EReal) := by
  obtain ⟨-, -, e0, e1, -⟩ := idx_zero t
  funext y
  unfold iblk0
  rw [View.read_apply]
  show (V c main_arg2 : S256x1024.Idx → EReal) _ = (V c main_arg2 : S256x1024.Idx → EReal) y
  congr 1
  funext a
  apply Fin.ext
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-! ## What the body stores, given its two loads -/

section Body

variable (hcodes : ∀ (w : Vec Ideal S1024x1024 .f32) (P : Vec Ideal S256x1024 .f32), k0_pay1 (F := Ideal) w P = codesT w P)
variable (hnorm : ∀ (w : Vec Ideal S1024x1024 .f32), k0_pay2 (F := Ideal) w = wnormRow w)

include hcodes in
/-- The bit array's staging buffer after the body holds the hash bits of its two loads. -/
theorem out_codes (x0 : Vec Ideal S1024x1024 .f32) (x1 : Vec Ideal S256x1024 .f32) :
    (out0_2 x0 x1 : Vec Ideal S256x1024 .bf16) = codesT x0 x1 := by
  unfold out0_2
  rw [View.canon_unit_zero hz]
  simp only [View.ld_unit_zero (S := S1024x1024) hz, View.ld_unit_zero (S := S256x1024) hz]
  exact hcodes x0 x1

include hnorm in
/-- The norm row's staging buffer after the body holds the row norms of its load. -/
theorem out_norms (x0 : Vec Ideal S1024x1024 .f32) (x1 : Vec Ideal S256x1024 .f32) :
    (out0_3 x0 x1 : Vec Ideal S1x1024 .f32) = wnormRow x0 := by
  unfold out0_3
  rw [View.canon_unit_zero hz]
  simp only [View.ld_unit_zero (S := S1024x1024) hz]
  exact hnorm x0

include hcodes in
/-- What the one point writes back into the bit array is the block of the hash bits of W against P. -/
theorem flushed_codes (c : Dev nD) (t : Fin cfg0.N) :
    (dat0 V c).flushed 2 t
      = ((cfg0.win 2).blk t).view.read (Elt Ideal) (codesT (V c main_arg1) (V c main_arg2)) := by
  obtain ⟨-, -, -, -, e0, e1, -⟩ := idx_zero t
  show (cfg0.win 2).cut (grid0.coords t) ((dat0 V c).after 2 t) = _
  rw [after0_2, blk_w, blk_p, out_codes hcodes]
  funext j
  show codesT (V c main_arg1) (V c main_arg2) j = codesT (V c main_arg1) (V c main_arg2) (((cfg0.win 2).blk t).view.emb j)
  congr 1
  funext a
  apply Fin.ext
  match a with
  | ⟨0, _⟩ => show (j 0).val = win0_2.index t (0 : Fin 2) * 256 + 1 * (j 0).val; omega
  | ⟨1, _⟩ => show (j 1).val = win0_2.index t (1 : Fin 2) * 1024 + 1 * (j 1).val; omega

include hnorm in
/-- What the one point writes back into the norm row is the block of the row norms of W. -/
theorem flushed_norms (c : Dev nD) (t : Fin cfg0.N) :
    (dat0 V c).flushed 3 t
      = ((cfg0.win 3).blk t).view.read (Elt Ideal) (wnormRow (V c main_arg1)) := by
  obtain ⟨-, -, -, -, -, -, e0, e1⟩ := idx_zero t
  show (cfg0.win 3).cut (grid0.coords t) ((dat0 V c).after 3 t) = _
  rw [after0_3, blk_w, out_norms hnorm]
  funext j
  show wnormRow (V c main_arg1) j = wnormRow (V c main_arg1) (((cfg0.win 3).blk t).view.emb j)
  congr 1
  funext a
  apply Fin.ext
  match a with
  | ⟨0, _⟩ => show (j 0).val = win0_3.index t (0 : Fin 2) * 1 + 1 * (j 0).val; omega
  | ⟨1, _⟩ => show (j 1).val = win0_3.index t (1 : Fin 2) * 1024 + 1 * (j 1).val; omega

include hcodes in
/-- The bit array after the launch: the hash bits of W's rows against P's rows. -/
theorem arr_codes (c : Dev nD) : (dat0 V c).arrAt 2 cfg0.N = codesT (V c main_arg1) (V c main_arg2) :=
  (dat0 V c).arrAt_eq_of_cover 2 _ (fun t _ => flushed_codes V hcodes c t) fun i =>
    ⟨t0_0, flush0_2 t0_0, by
      show i ∈ ((View.whole main_v0_0).slice (win0_2.rect t0_0)).set
      rw [View.set_slice_whole, Rect.mem_set_unit]
      intro a
      have h0 : (i 0 : Nat) < 256 := (i 0).isLt
      have h1 : (i 1 : Nat) < 1024 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 256 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 1024 from by decide +kernel]; omega⟩

include hnorm in
/-- The norm row after the launch: the norms of W's rows. -/
theorem arr_norms (c : Dev nD) : (dat0 V c).arrAt 3 cfg0.N = wnormRow (V c main_arg1) :=
  (dat0 V c).arrAt_eq_of_cover 3 _ (fun t _ => flushed_norms V hnorm c t) fun i =>
    ⟨t0_0, flush0_3 t0_0, by
      show i ∈ ((View.whole main_v0_1).slice (win0_3.rect t0_0)).set
      rw [View.set_slice_whole, Rect.mem_set_unit]
      intro a
      have h0 : (i 0 : Nat) < 1 := (i 0).isLt
      have h1 : (i 1 : Nat) < 1024 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide +kernel, show win0_3.xsize (grid0.coords t0_0) 0 = 1 from by decide +kernel]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide +kernel, show win0_3.xsize (grid0.coords t0_0) 1 = 1024 from by decide +kernel]; omega⟩

end Body

end Cert.Hash.First

end
-- ==== Proof.SecondLaunch.lean ====
/-
  The second launch's output array as a function of X and of the arrays it finds.

  The second launch walks X in sixteen blocks of 1024 rows: at point t its first window holds rows 1024 t … 1024 t + 1023 of
  X and its output window the same rows of the result; the other three windows (P, the bit array, the norm row) are whole
  arrays, the same at every point. The body's one store is, at (p, q), the product of the norm of row p of the block, the
  norm row's entry q and the cosine estimate of the agreement between the block row's hash bits and column q of the bit
  array. Row p of block t being row 1024 t + p of X, the sixteen write-backs tile the result.
-/
import proofs.«167399_j85538568667753_2_alg».proof.Proof.Gen.KernelIdeal.Frame
import proofs.«167399_j85538568667753_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Hash.Second

open Cert.KernelIdeal Cert.KernelIdeal.Gen Cert.Hash

variable (V : (c : Dev nD) → (b : Ref sig .tc) → Buf (Elt Ideal) ((c : Thread nD τ).loc b))

theorem hz : (![0, 0] : Fin 2 → Nat) = fun _ => 0 := funext fun a => by fin_cases a <;> rfl

/-- Where each window sits at point t: X's and the result's at block (t, 0), the three whole arrays at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of X at point t is rows 1024 t … 1024 t + 1023 of X. -/
theorem blk_x (c : Dev nD) (t : Fin cfg1.N) (y : S1024x1024.Idx) (k : S16384x1024.Idx)
    (hk0 : (k 0).val = 1024 * t.val + (y 0).val) (hk1 : (k 1).val = (y 1).val) :
    (iblk1 V c 0 t : Vec Ideal S1024x1024 .f32) y = (V c main_arg0 : S16384x1024.Idx → EReal) k := by
  obtain ⟨e0, e1, -⟩ := idx_facts t
  unfold iblk1
  rw [View.read_apply]
  show (V c main_arg0 : S16384x1024.Idx → EReal) _ = (V c main_arg0 : S16384x1024.Idx → EReal) k
  congr 1
  funext a
  apply Fin.ext
  match a with
  | ⟨0, _⟩ => show win1_0.index t (0 : Fin 2) * 1024 + 1 * (y 0).val = (k 0).val; omega
  | ⟨1, _⟩ => show win1_0.index t (1 : Fin 2) * 1024 + 1 * (y 1).val = (k 1).val; omega

/-- The block of P at every point is P. -/
theorem blk_p (c : Dev nD) (t : Fin cfg1.N) :
    (iblk1 V c 1 t : Vec Ideal S256x1024 .f32) = (V c main_arg2 : S256x1024.Idx → EReal) := by
  obtain ⟨-, -, e0, e1, -⟩ := idx_facts t
  funext y
  unfold iblk1
  rw [View.read_apply]
  show (V c main_arg2 : S256x1024.Idx → EReal) _ = (V c main_arg2 : S256x1024.Idx → EReal) y
  congr 1
  funext a
  apply Fin.ext
  match a with
  | ⟨0, _⟩ => show win1_1.index t (0 : Fin 2) * 256 + 1 * (y 0).val = (y 0).val; omega
  | ⟨1, _⟩ => show win1_1.index t (1 : Fin 2) * 1024 + 1 * (y 1).val = (y 1).val; omega

/-- The block of the bit array at every point is the bit array. -/
theorem blk_codes (c : Dev nD) (t : Fin cfg1.N) :
    (iblk1 V c 2 t : Vec Ideal S256x1024 .bf16) = (V c main_v0_0 : S256x1024.Idx → EReal) := by
  obtain ⟨-, -, -, -, e0, e1, -⟩ := idx_facts t
  funext y
  unfold iblk1
  rw [View.read_apply]
  show (V c main_v0_0 : S256x1024.Idx → EReal) _ = (V c main_v0_0 : S256x1024.Idx → EReal) y
  congr 1
  funext a
  apply Fin.ext
  match a with
  | ⟨0, _⟩ => show win1_2.index t (0 : Fin 2) * 256 + 1 * (y 0).val = (y 0).val; omega
  | ⟨1, _⟩ => show win1_2.index t (1 : Fin 2) * 1024 + 1 * (y 1).val = (y 1).val; omega

/-- The block of the norm row at every point is the norm row. -/
theorem blk_norms (c : Dev nD) (t : Fin cfg1.N) :
    (iblk1 V c 3 t : Vec Ideal S1x1024 .f32) = (V c main_v0_1 : S1x1024.Idx → EReal) := by
  obtain ⟨-, -, -, -, -, -, e0, e1, -⟩ := idx_facts t
  funext y
  unfold iblk1
  rw [View.read_apply]
  show (V c main_v0_1 : S1x1024.Idx → EReal) _ = (V c main_v0_1 : S1x1024.Idx → EReal) y
  congr 1
  funext a
  apply Fin.ext
  match a with
  | ⟨0, _⟩ => show win1_3.index t (0 : Fin 2) * 1 + 1 * (y 0).val = (y 0).val; omega
  | ⟨1, _⟩ => show win1_3.index t (1 : Fin 2) * 1024 + 1 * (y 1).val = (y 1).val; omega

/-! ## What the body stores, given its four loads, and the array the sixteen write-backs leave -/

/-- Row r0 + p of X against W and P, spelt over a block whose rows are rows r0 … of X: the value at (p, q) of the body's
    store, with the norm row and the bit array those of W and P, is the result at (r0 + p, q). -/
theorem point_eq (X : S16384x1024.Idx → EReal) (W : S1024x1024.Idx → EReal) (P : S256x1024.Idx → EReal)
    (b0 : S1024x1024.Idx → EReal) (r0 : ℕ)
    (hb0 : ∀ (y : S1024x1024.Idx) (k : S16384x1024.Idx), (k 0).val = r0 + (y 0).val → (k 1).val = (y 1).val → b0 y = X k)
    (j : S1024x1024.Idx) (i : S16384x1024.Idx) (h0 : (i 0).val = r0 + (j 0).val) (h1 : (i 1).val = (j 1).val) :
    rowNorm (rows b0 ⟨(j 0).val, idx2_lt0 j⟩) * wnormRow W (ix2 (0 : Fin 1) ⟨(j 1).val, idx2_lt1 j⟩)
        * cosEst (∑ k : Fin 256, code (projK (rows b0 ⟨(j 0).val, idx2_lt0 j⟩) (rows P k))
            * codesT W P (ix2 k ⟨(j 1).val, idx2_lt1 j⟩))
      = arrK X W P i := by
  have hrow : rows b0 ⟨(j 0).val, idx2_lt0 j⟩ = rows X ⟨(i 0).val, idx2_lt0 i⟩ :=
    funext fun l => hb0 (ix2 _ l) (ix2 _ l) h0 rfl
  have hq : (⟨(j 1).val, idx2_lt1 j⟩ : Fin 1024) = ⟨(i 1).val, idx2_lt1 i⟩ := Fin.ext h1.symm
  rw [hrow, hq]
  rfl

section Body

variable (hout : ∀ (x : Vec Ideal S1024x1024 .f32) (P : Vec Ideal S256x1024 .f32) (cT : Vec Ideal S256x1024 .bf16)
    (wn : Vec Ideal S1x1024 .f32) (p q : Fin 1024),
    k1_pay1 (F := Ideal) (k1_pay2 x) (k1_pay3 x P cT) (k1_pay4 wn) (ix2 p q)
      = rowNorm (rows x p) * wn (ix2 (0 : Fin 1) q)
          * cosEst (∑ k : Fin 256, code (projK (rows x p) (rows P k)) * cT (ix2 k q)))

include hout in
/-- The result window's staging buffer after the body, entry by entry. -/
theorem out_body (b0 : Vec Ideal S1024x1024 .f32) (b1 : Vec Ideal S256x1024 .f32) (b2 : Vec Ideal S256x1024 .bf16)
    (b3 : Vec Ideal S1x1024 .f32) :
    (out1_4 b0 b1 b2 b3 : Vec Ideal S1024x1024 .f32) = fun j : S1024x1024.Idx =>
      rowNorm (rows b0 ⟨(j 0).val, idx2_lt0 j⟩) * b3 (ix2 (0 : Fin 1) ⟨(j 1).val, idx2_lt1 j⟩)
        * cosEst (∑ k : Fin 256, code (projK (rows b0 ⟨(j 0).val, idx2_lt0 j⟩) (rows b1 k))
            * b2 (ix2 k ⟨(j 1).val, idx2_lt1 j⟩)) := by
  unfold out1_4
  rw [View.canon_unit_zero hz]
  simp only [View.ld_unit_zero (S := S1024x1024) hz, View.ld_unit_zero (S := S256x1024) hz,
    View.ld_unit_zero (S := S1x1024) hz]
  funext j
  obtain ⟨p, q, rfl⟩ : ∃ (p : Fin 1024) (q : Fin 1024), j = ix2 p q := ⟨j 0, j 1, eq_ix2 j⟩
  exact hout b0 b1 b2 b3 p q

include hout in
/-- What point t writes back is block t of the result, when the launch finds X, P, the hash bits of W against P and the
    norms of W's rows in its four input arrays. -/
theorem flushed_out (c : Dev nD) (X : S16384x1024.Idx → EReal) (W : S1024x1024.Idx → EReal) (P : S256x1024.Idx → EReal)
    (hX : (V c main_arg0 : S16384x1024.Idx → EReal) = X) (hP : (V c main_arg2 : S256x1024.Idx → EReal) = P)
    (hC : (V c main_v0_0 : S256x1024.Idx → EReal) = codesT W P) (hN : (V c main_v0_1 : S1x1024.Idx → EReal) = wnormRow W)
    (t : Fin cfg1.N) :
    (dat1 V c).flushed 4 t = ((cfg1.win 4).blk t).view.read (Elt Ideal) (arrK X W P) := by
  obtain ⟨-, -, -, -, -, -, -, -, e0, e1⟩ := idx_facts t
  show (cfg1.win 4).cut (grid1.coords t) ((dat1 V c).after 4 t) = _
  rw [after1_4, blk_p, blk_codes, blk_norms, hP, hC, hN, out_body hout]
  funext j
  show _ = arrK X W P (((cfg1.win 4).blk t).view.emb j)
  refine point_eq X W P (iblk1 V c 0 t) (1024 * t.val) (fun y k hk0 hk1 => ?_) j _ ?_ ?_
  · rw [← hX]; exact blk_x V c t y k hk0 hk1
  · show win1_4.index t (0 : Fin 2) * 1024 + 1 * (j 0).val = 1024 * t.val + (j 0).val; omega
  · show win1_4.index t (1 : Fin 2) * 1024 + 1 * (j 1).val = (j 1).val; omega

include hout in
/-- The result array after the sixteen write-backs: row r is written by point r / 1024, so the blocks cover it. -/
theorem arr_out (c : Dev nD) (X : S16384x1024.Idx → EReal) (W : S1024x1024.Idx → EReal) (P : S256x1024.Idx → EReal)
    (hX : (V c main_arg0 : S16384x1024.Idx → EReal) = X) (hP : (V c main_arg2 : S256x1024.Idx → EReal) = P)
    (hC : (V c main_v0_0 : S256x1024.Idx → EReal) = codesT W P) (hN : (V c main_v0_1 : S1x1024.Idx → EReal) = wnormRow W) :
    (dat1 V c).arrAt 4 cfg1.N = arrK X W P :=
  (dat1 V c).arrAt_eq_of_cover 4 _ (fun t _ => flushed_out V hout c X W P hX hP hC hN t) fun i => by
    have hi0 : (i 0 : Nat) < 16384 := (i 0).isLt
    have hi1 : (i 1 : Nat) < 1024 := (i 1).isLt
    have hN16 : cfg1.N = 16 := N_1
    obtain ⟨t, ht⟩ : ∃ t : Fin cfg1.N, t.val = (i 0 : Nat) / 1024 := ⟨⟨(i 0 : Nat) / 1024, by rw [hN16]; omega⟩, rfl⟩
    obtain ⟨-, -, -, -, -, -, -, -, e0, e1⟩ := idx_facts t
    refine ⟨t, flush1_4 t, ?_⟩
    show i ∈ ((View.whole main_v1).slice (win1_4.rect t)).set
    rw [View.set_slice_whole, Rect.mem_set_unit]
    intro a
    match a with
    | ⟨0, _⟩ =>
      show win1_4.index t (0 : Fin 2) * 1024 ≤ (i 0 : Nat) ∧ (i 0 : Nat) < win1_4.index t (0 : Fin 2) * 1024 + 1024
      omega
    | ⟨1, _⟩ =>
      show win1_4.index t (1 : Fin 2) * 1024 ≤ (i 1 : Nat) ∧ (i 1 : Nat) < win1_4.index t (1 : Fin 2) * 1024 + 1024
      omega

end Body

end Cert.Hash.Second

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«167399_j85538568667753_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.Payloads.lean ====
/-
  The arithmetic of the two kernel bodies read at an index, over the extended reals.

  The first body computes, from the matrix W (rows w_q) and the projection matrix P (rows p_k), the hash bits
  code(<p_k, w_q>) as a [256, 1024] matrix and the row norms n(w_q) laid out as a [1, 1024] row. The second computes,
  for a block of rows x_p, the column of norms n(x_p), the hash bits of the three-term projections of x_p on the rows
  p_k, the agreement counts against the stored bits, the cosine estimate of each count, and the product of the two norms
  with the estimate. Each stage is read here at explicit coordinates: a matrix product into the zero accumulator is a
  finite sum of products of entries, a sum along a row is a finite sum, and a broadcast, a transpose or a cast to the
  same shape only renames the index. Every format change is the identity on extended reals.
-/
import proofs.«167399_j85538568667753_2_alg».proof.Proof.Spec
import proofs.«167399_j85538568667753_2_alg».proof.Proof.Gen.KernelIdeal.Skeleton
import proofs.«167399_j85538568667753_2_alg».proof.Proof.LibRowsDot
import proofs.«167399_j85538568667753_2_alg».proof.Proof.LibPlainDot
import proofs.«167399_j85538568667753_2_alg».proof.Proof.LibRowSum
import proofs.«167399_j85538568667753_2_alg».proof.Proof.LibVecIx2
import Idealize.ShloMosaic.Lib.ValueLayout
import Idealize.ShloMosaic.Lib.Pipeline.Value

noncomputable section

namespace Cert.Hash.Body

open Idealize.ShloMosaic Idealize.ShloMosaic.ValueIdx Cert.KernelIdeal Cert.KernelIdeal.Gen Cert.Hash

/-- Entry (p, q) of A · Bᵀ accumulated into zero is the sum over k of A(p, k) · B(q, k), whatever precision the
    product is asked for: on extended reals the precision plays no part. -/
theorem matmulT_apply {M K N : ℕ} {φ₁ φ₂ : FTy} (prec : Option ContractPrecision)
    (A : FVec Ideal ⟨2, ![M, K]⟩ φ₁) (B : FVec Ideal ⟨2, ![N, K]⟩ φ₂) (p : Fin M) (q : Fin N) :
    matmul (DotDims.transposedRhs M K N) prec A B (constant ⟨2, ![M, N]⟩ .f32 0x00000000#32) (ix2 p q)
      = ∑ k : Fin K, A (ix2 p k) * B (ix2 q k) :=
  Cert.Lib.RowsDot.matmul_zero_apply A B p q

/-- The hash bits of W against P: entry (k, q) is code(<p_k, w_q>). -/
theorem pay_codes (w : Vec Ideal S1024x1024 .f32) (P : Vec Ideal S256x1024 .f32) :
    k0_pay1 (F := Ideal) w P = codesT w P := by
  funext j
  obtain ⟨k, q, rfl⟩ : ∃ (k : Fin 256) (q : Fin 1024), j = ix2 k q := ⟨j 0, j 1, eq_ix2 j⟩
  show code (matmul (F := Ideal) (DotDims.transposedRhs 256 1024 1024) (some .fp32) P w
      (constant ⟨2, ![256, 1024]⟩ .f32 0x00000000#32) (ix2 k q)) = _
  exact congrArg code (matmulT_apply (some .fp32) P w k q)

/-- The column of row norms: entry (p, ·) is n(x_p). -/
theorem norm_col (x : Vec Ideal S1024x1024 .f32) (p : Fin 1024) (u : Fin 1) :
    k1_pay2 (F := Ideal) x (ix2 p u) = rowNorm (rows x p) :=
  congrArg (fun t => Ideal.sqrt t + Ideal.ofBits .f32 0x34000000#32)
    (Cert.Lib.RowSum.rowsum_column (mulf x x) reduces_S1024x1024_S1024 (.inl rfl) rfl shapeCasts_S1024_S1024x1 p u)

/-- The row norms of W as a [1, 1024] row: the column of norms transposed. -/
theorem pay_wnorm (w : Vec Ideal S1024x1024 .f32) : k0_pay2 (F := Ideal) w = wnormRow w := by
  funext j
  obtain ⟨u, q, rfl⟩ : ∃ (u : Fin 1) (q : Fin 1024), j = ix2 u q := ⟨j 0, j 1, eq_ix2 j⟩
  show transpose S1x1024 [1, 0] (k1_pay2 (F := Ideal) w) transposes_S1024x1_p1_0_S1x1024 (ix2 u q) = _
  exact (transpose_ix2_apply (k1_pay2 (F := Ideal) w) transposes_S1024x1_p1_0_S1x1024 u q).trans (norm_col w q u)

/-- The three-term projection of x_p on p_k: the sum of the three products A · Bᵀ at (p, k), the second with P - P
    and the third with x - x in place of one factor. -/
theorem proj3 (x : FVec Ideal S1024x1024 .f32) (P : FVec Ideal S256x1024 .f32) (p : Fin 1024) (k : Fin 256) :
    addf
      (addf
        (matmul (F := Ideal) (DotDims.transposedRhs 1024 1024 256) none (truncf .bf16 x bitsLt_bf16_f32)
          (truncf .bf16 P bitsLt_bf16_f32) (constant ⟨2, ![1024, 256]⟩ .f32 0x00000000#32))
        (matmul (F := Ideal) (DotDims.transposedRhs 1024 1024 256) none (truncf .bf16 x bitsLt_bf16_f32)
          (truncf .bf16 (subf P P) bitsLt_bf16_f32) (constant ⟨2, ![1024, 256]⟩ .f32 0x00000000#32)))
      (matmul (F := Ideal) (DotDims.transposedRhs 1024 1024 256) none (truncf .bf16 (subf x x) bitsLt_bf16_f32)
        (truncf .bf16 P bitsLt_bf16_f32) (constant ⟨2, ![1024, 256]⟩ .f32 0x00000000#32)) (ix2 p k)
      = projK (rows x p) (rows P k) :=
  congrArg₂ (· + ·)
    (congrArg₂ (· + ·)
      (matmulT_apply none (truncf .bf16 x bitsLt_bf16_f32) (truncf .bf16 P bitsLt_bf16_f32) p k)
      (matmulT_apply none (truncf .bf16 x bitsLt_bf16_f32) (truncf .bf16 (subf P P) bitsLt_bf16_f32) p k))
    (matmulT_apply none (truncf .bf16 (subf x x) bitsLt_bf16_f32) (truncf .bf16 P bitsLt_bf16_f32) p k)

/-- The cosine estimate at (p, q): the agreement count is the sum over k of the hash bit of the projection of x_p
    on p_k times the stored bit at (k, q). -/
theorem cos_stage (x : Vec Ideal S1024x1024 .f32) (P : Vec Ideal S256x1024 .f32) (cT : Vec Ideal S256x1024 .bf16)
    (p q : Fin 1024) :
    k1_pay3 (F := Ideal) x P cT (ix2 p q)
      = cosEst (∑ k : Fin 256, code (projK (rows x p) (rows P k)) * cT (ix2 k q)) := by
  show cosEst (matmul (F := Ideal) (DotDims.plain 1024 256 1024) none _
      (shapeCast S256x1024 cT shapeCasts_S256x1024_S256x1024)
      (constant ⟨2, ![1024, 1024]⟩ .f32 0x00000000#32) (ix2 p q)) = _
  refine congrArg cosEst ((Cert.PlainDot.matmul_zero_plain_apply none _ _ p q).trans
    (Finset.sum_congr rfl fun k _ => ?_))
  exact congrArg₂ (· * ·) (congrArg code (proj3 x P p k))
    (congrFun (shapeCast_self cT shapeCasts_S256x1024_S256x1024) (ix2 k q))

/-- The row of norms is read as it is: a cast to the same shape changes nothing. -/
theorem pay4 (wn : Vec Ideal S1x1024 .f32) : k1_pay4 (F := Ideal) wn = wn :=
  shapeCast_self wn shapeCasts_S1x1024_S1x1024

/-- The result at (p, q): the norm of x_p times the stored norm at q times the cosine estimate. -/
theorem pay_out (x : Vec Ideal S1024x1024 .f32) (P : Vec Ideal S256x1024 .f32) (cT : Vec Ideal S256x1024 .bf16)
    (wn : Vec Ideal S1x1024 .f32) (p q : Fin 1024) :
    k1_pay1 (F := Ideal) (k1_pay2 x) (k1_pay3 x P cT) (k1_pay4 wn) (ix2 p q)
      = rowNorm (rows x p) * wn (ix2 (0 : Fin 1) q)
          * cosEst (∑ k : Fin 256, code (projK (rows x p) (rows P k)) * cT (ix2 k q)) := by
  show broadcastTo S1024x1024 (k1_pay2 (F := Ideal) x) broadcasts_S1024x1_S1024x1024 (ix2 p q)
      * broadcastTo S1024x1024 (k1_pay4 (F := Ideal) wn) broadcasts_S1x1024_S1024x1024 (ix2 p q)
      * k1_pay3 (F := Ideal) x P cT (ix2 p q) = _
  refine congrArg₂ (· * ·) (congrArg₂ (· * ·) ?_ ?_) (cos_stage x P cT p q)
  · exact (Cert.Lib.VecIx2.bcast_col _ broadcasts_S1024x1_S1024x1024 p q).trans (norm_col x p 0)
  · exact (broadcastTo_1b_ab_apply _ broadcasts_S1x1024_S1024x1024 p q).trans
      (congrFun (pay4 wn) (ix2 (0 : Fin 1) q))

end Cert.Hash.Body

end
-- ==== Proof.KernelValue.lean ====
/-
  The idealized program's result array as one function of its three arguments.

  The second launch finds X and P as launched (the first launch writes neither), and in the two arrays the first launch
  wrote the hash bits of W's rows against P's rows and the norms of W's rows. Its sixteen write-backs then leave, at
  (b, q), the product of the two row norms and the cosine estimate of the agreement count of the hash bits of x_b and w_q.
-/
import proofs.«167399_j85538568667753_2_alg».proof.Proof.Gen.KernelIdeal.Frame
import proofs.«167399_j85538568667753_2_alg».proof.Proof.Spec
import proofs.«167399_j85538568667753_2_alg».proof.Proof.KernelRun
import proofs.«167399_j85538568667753_2_alg».proof.Proof.FirstLaunch
import proofs.«167399_j85538568667753_2_alg».proof.Proof.SecondLaunch
import proofs.«167399_j85538568667753_2_alg».proof.Proof.Payloads
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.Hash.Value

open Cert.KernelIdeal Cert.KernelIdeal.Gen Cert.Hash

variable (m : (ℓ : Loc nD τ sig) → Buf (Elt Ideal) ℓ) (ρ : Dev nD → PrngReg)

/-- The second launch finds X as launched. -/
theorem entry_x (c : Dev nD) :
    (V1 m ρ c main_arg0 : S16384x1024.Idx → EReal) = m ((c : Thread nD τ).loc main_arg0) :=
  W1_of_ne m ρ c main_arg0 (by decide)

/-- The second launch finds P as launched: the first launch only reads it. -/
theorem entry_p (c : Dev nD) :
    (V1 m ρ c main_arg2 : S256x1024.Idx → EReal) = m ((c : Thread nD τ).loc main_arg2) :=
  (W1_arr m ρ c 1).trans (((dat0 (V0 m ρ) c).arrAt_in 1 rfl _).trans (A_eq0 (V0 m ρ) c 1))

/-- The second launch finds the hash bits of W against P in the bit array. -/
theorem entry_codes (c : Dev nD) :
    (V1 m ρ c main_v0_0 : S256x1024.Idx → EReal)
      = codesT (m ((c : Thread nD τ).loc main_arg1)) (m ((c : Thread nD τ).loc main_arg2)) :=
  (W1_arr m ρ c 2).trans (First.arr_codes (V0 m ρ) Body.pay_codes c)

/-- The second launch finds the norms of W's rows in the norm row. -/
theorem entry_norms (c : Dev nD) :
    (V1 m ρ c main_v0_1 : S1x1024.Idx → EReal) = wnormRow (m ((c : Thread nD τ).loc main_arg1)) :=
  (W1_arr m ρ c 3).trans (First.arr_norms (V0 m ρ) Body.pay_wnorm c)

/-- The result array after the run. -/
theorem result (c : Dev nD) :
    W2 m ρ c (Proc.devRef .tc main_v1)
      = arrK (m ((c : Thread nD τ).loc main_arg0)) (m ((c : Thread nD τ).loc main_arg1)) (m ((c : Thread nD τ).loc main_arg2)) :=
  (Run.result_arr m ρ c).trans
    (Second.arr_out (V1 m ρ) Body.pay_out c _ _ _ (entry_x m ρ c) (entry_p m ρ c) (entry_codes m ρ c) (entry_norms m ρ c))

/-- Every weakly fair execution of the idealized program terminates, nothing faulting, with the result array at the
    function of the arguments and the arguments unchanged. -/
theorem run : θ_run defs (onTc (τ := τ) (main (F := Ideal))) ⟨m, fun _ => 0, ρ⟩ (fun r => ∀ c : Dev nD,
      r.2.mem ((c.tc : Thread nD τ).loc main_v1)
        = arrK (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (Run.run_named m ρ)

end Cert.Hash.Value

end
-- ==== Proof.RefValue.lean ====
/-
  The reference program computes spelling R of the hashed-projection product.

  Read at an index (b, q), the reference's result is (n(x_b) * n(w_q)) * cos(h * (1 - d / 256)), where n is the
  row norm whose sum of squares starts from the value of the zero word, d = sum_k code(<x_b / n(x_b), p_k>) *
  code(<w_q / n(w_q), p_k>), and both projections take the normalised row as the left factor against the
  transposed rows of P. Each stage below reads one intermediate array of the reference at explicit coordinates;
  the last one puts them together.
-/
import proofs.«167399_j85538568667753_2_alg».proof.Proof.Spec
import proofs.«167399_j85538568667753_2_alg».proof.Proof.Gen.ReferenceIdeal.Read

noncomputable section

namespace Cert.Hash.Ref

open Idealize.ShloMosaic Idealize.ShloMosaic.ValueIdx Cert.ReferenceIdeal Cert.ReferenceIdeal.Read

/-- The norm column of X at (b, 0) is n(x_b). -/
theorem norm_x (x0 : (⟨S16384x1024, .f32⟩ : BufTy).Contents (Elt Ideal)) (b : Fin 16384) (u : Fin 1) :
    val_main_v2 (F := Ideal) x0 (ix2 b u) = rowNormR (rows x0 b) := by
  have hidx : ∀ k : Fin 1024, idx_main_call0_v1 (idx_main_call0_v2 (ix2 b u)) k = ix2 b k := fun k =>
    funext fun a => by match a with | ⟨0, _⟩ => rfl | ⟨1, _⟩ => rfl
  rw [val_main_v2_apply, val_main_v0_apply, val_main_call0_v2_apply, val_main_call0_v1_apply,
    val_main_v1_apply, val_main_cst_apply, val_main_call0_cst_apply]
  simp only [val_main_call0_v0_apply, hidx, Ideal.mulf_def, Ideal.addf_def, Ideal.hostUnary_sqrt_def,
    Ideal.ofBits_def]
  rfl

/-- The norm column of W at (q, 0) is n(w_q). -/
theorem norm_w (x1 : (⟨S1024x1024, .f32⟩ : BufTy).Contents (Elt Ideal)) (q : Fin 1024) (u : Fin 1) :
    val_main_v7 (F := Ideal) x1 (ix2 q u) = rowNormR (rows x1 q) := by
  have hidx : ∀ k : Fin 1024, idx_main_call1_v1 (idx_main_call1_v2 (ix2 q u)) k = ix2 q k := fun k =>
    funext fun a => by match a with | ⟨0, _⟩ => rfl | ⟨1, _⟩ => rfl
  rw [val_main_v7_apply, val_main_v5_apply, val_main_call1_v2_apply, val_main_call1_v1_apply,
    val_main_v6_apply, val_main_cst_0_apply, val_main_call1_cst_apply]
  simp only [val_main_call1_v0_apply, hidx, Ideal.mulf_def, Ideal.addf_def, Ideal.hostUnary_sqrt_def,
    Ideal.ofBits_def]
  rfl

/-- The hash bits of X at (b, k): code(<x_b / n(x_b), p_k>). -/
theorem code_x (x0 : (⟨S16384x1024, .f32⟩ : BufTy).Contents (Elt Ideal))
    (x2 : (⟨S256x1024, .f32⟩ : BufTy).Contents (Elt Ideal)) (b : Fin 16384) (k : Fin 256) :
    val_main_v15 (F := Ideal) x0 x2 (ix2 b k)
      = code (∑ i : Fin 1024, Ideal.div (x0 (ix2 b i)) (rowNormR (rows x0 b)) * x2 (ix2 k i)) := by
  have hl : ∀ i : Fin 1024, lidx_main_v11 (ix2 b k) i = ix2 b i := fun i =>
    funext fun a => by match a with | ⟨0, _⟩ => rfl | ⟨1, _⟩ => rfl
  have hr : ∀ i : Fin 1024, ridx_main_v11 (ix2 b k) i = ix2 i k := fun i =>
    funext fun a => by match a with | ⟨0, _⟩ => rfl | ⟨1, _⟩ => rfl
  have h3 : ∀ i : Fin 1024, idx_main_v3 (ix2 b i) = ix2 b (0 : Fin 1) := fun i =>
    funext fun a => by match a with | ⟨0, _⟩ => rfl | ⟨1, _⟩ => rfl
  have h10 : ∀ i : Fin 1024, idx_main_v10 (ix2 i k) = ix2 k i := fun i =>
    funext fun a => by match a with | ⟨0, _⟩ => rfl | ⟨1, _⟩ => rfl
  have hsum : val_main_v11 (F := Ideal) x0 x2 (ix2 b k)
      = ∑ i : Fin 1024, Ideal.div (x0 (ix2 b i)) (rowNormR (rows x0 b)) * x2 (ix2 k i) := by
    rw [val_main_v11_apply]
    refine Finset.sum_congr rfl fun i _ => ?_
    rw [hl, hr, val_main_v4_apply, val_main_v3_apply, h3, norm_x, val_main_v10_apply, h10]
    rfl
  rw [val_main_v15_apply, val_main_v14_apply, val_main_v13_apply, hsum, val_main_v12_apply,
    val_main_cst_1_apply, val_main_call2_v0_apply, val_main_cst_2_apply, val_main_call2_v1_apply,
    val_main_cst_3_apply]
  rfl

/-- The hash bits of W at (q, k): code(<w_q / n(w_q), p_k>). -/
theorem code_w (x1 : (⟨S1024x1024, .f32⟩ : BufTy).Contents (Elt Ideal))
    (x2 : (⟨S256x1024, .f32⟩ : BufTy).Contents (Elt Ideal)) (q : Fin 1024) (k : Fin 256) :
    val_main_v21 (F := Ideal) x1 x2 (ix2 q k)
      = code (∑ i : Fin 1024, Ideal.div (x1 (ix2 q i)) (rowNormR (rows x1 q)) * x2 (ix2 k i)) := by
  have hl : ∀ i : Fin 1024, lidx_main_v17 (ix2 q k) i = ix2 q i := fun i =>
    funext fun a => by match a with | ⟨0, _⟩ => rfl | ⟨1, _⟩ => rfl
  have hr : ∀ i : Fin 1024, ridx_main_v17 (ix2 q k) i = ix2 i k := fun i =>
    funext fun a => by match a with | ⟨0, _⟩ => rfl | ⟨1, _⟩ => rfl
  have h8 : ∀ i : Fin 1024, idx_main_v8 (ix2 q i) = ix2 q (0 : Fin 1) := fun i =>
    funext fun a => by match a with | ⟨0, _⟩ => rfl | ⟨1, _⟩ => rfl
  have h16 : ∀ i : Fin 1024, idx_main_v16 (ix2 i k) = ix2 k i := fun i =>
    funext fun a => by match a with | ⟨0, _⟩ => rfl | ⟨1, _⟩ => rfl
  have hsum : val_main_v17 (F := Ideal) x1 x2 (ix2 q k)
      = ∑ i : Fin 1024, Ideal.div (x1 (ix2 q i)) (rowNormR (rows x1 q)) * x2 (ix2 k i) := by
    rw [val_main_v17_apply]
    refine Finset.sum_congr rfl fun i _ => ?_
    rw [hl, hr, val_main_v9_apply, val_main_v8_apply, h8, norm_w, val_main_v16_apply, h16]
    rfl
  rw [val_main_v21_apply, val_main_v20_apply, val_main_v19_apply, hsum, val_main_v18_apply,
    val_main_cst_4_apply, val_main_call3_v0_apply, val_main_cst_5_apply, val_main_call3_v1_apply,
    val_main_cst_6_apply]
  rfl

/-- The agreement count at (b, q): sum_k code(<x_b / n(x_b), p_k>) * code(<w_q / n(w_q), p_k>). -/
theorem count_at (x0 : (⟨S16384x1024, .f32⟩ : BufTy).Contents (Elt Ideal))
    (x1 : (⟨S1024x1024, .f32⟩ : BufTy).Contents (Elt Ideal))
    (x2 : (⟨S256x1024, .f32⟩ : BufTy).Contents (Elt Ideal)) (b : Fin 16384) (q : Fin 1024) :
    val_main_v23 (F := Ideal) x0 x1 x2 (ix2 b q)
      = ∑ k : Fin 256, code (∑ i : Fin 1024, Ideal.div (x0 (ix2 b i)) (rowNormR (rows x0 b)) * x2 (ix2 k i))
          * code (∑ i : Fin 1024, Ideal.div (x1 (ix2 q i)) (rowNormR (rows x1 q)) * x2 (ix2 k i)) := by
  have hl : ∀ k : Fin 256, lidx_main_v23 (ix2 b q) k = ix2 b k := fun k =>
    funext fun a => by match a with | ⟨0, _⟩ => rfl | ⟨1, _⟩ => rfl
  have hr : ∀ k : Fin 256, ridx_main_v23 (ix2 b q) k = ix2 k q := fun k =>
    funext fun a => by match a with | ⟨0, _⟩ => rfl | ⟨1, _⟩ => rfl
  have h22 : ∀ k : Fin 256, idx_main_v22 (ix2 k q) = ix2 q k := fun k =>
    funext fun a => by match a with | ⟨0, _⟩ => rfl | ⟨1, _⟩ => rfl
  rw [val_main_v23_apply]
  refine Finset.sum_congr rfl fun k _ => ?_
  rw [hl, hr, code_x, val_main_v22_apply, h22, code_w]

/-- The cosine factor at (b, q) is the cosine estimate of the agreement count. -/
theorem cos_at (x0 : (⟨S16384x1024, .f32⟩ : BufTy).Contents (Elt Ideal))
    (x1 : (⟨S1024x1024, .f32⟩ : BufTy).Contents (Elt Ideal))
    (x2 : (⟨S256x1024, .f32⟩ : BufTy).Contents (Elt Ideal)) (j : S16384x1024.Idx) :
    val_main_v30 (F := Ideal) x0 x1 x2 j = cosEst (val_main_v23 (F := Ideal) x0 x1 x2 j) := by
  rw [val_main_v30_apply, val_main_v29_apply, val_main_v28_apply, val_main_cst_9_apply, val_main_v27_apply,
    val_main_v26_apply, val_main_cst_8_apply, val_main_v25_apply, val_main_v24_apply, val_main_cst_7_apply]
  rfl

/-- The product of the two norms at (b, q): n(x_b) * n(w_q). -/
theorem norms_at (x0 : (⟨S16384x1024, .f32⟩ : BufTy).Contents (Elt Ideal))
    (x1 : (⟨S1024x1024, .f32⟩ : BufTy).Contents (Elt Ideal)) (b : Fin 16384) (q : Fin 1024) :
    val_main_v34 (F := Ideal) x0 x1 (ix2 b q) = rowNormR (rows x0 b) * rowNormR (rows x1 q) := by
  have h32 : idx_main_v32 (ix2 b q) = ix2 b (0 : Fin 1) :=
    funext fun a => by match a with | ⟨0, _⟩ => rfl | ⟨1, _⟩ => rfl
  have h33 : idx_main_v33 (ix2 b q) = ix2 (0 : Fin 1) q :=
    funext fun a => by match a with | ⟨0, _⟩ => rfl | ⟨1, _⟩ => rfl
  have h31 : idx_main_v31 (ix2 (0 : Fin 1) q) = ix2 q (0 : Fin 1) :=
    funext fun a => by match a with | ⟨0, _⟩ => rfl | ⟨1, _⟩ => rfl
  rw [val_main_v34_apply, val_main_v32_apply, h32, norm_x, val_main_v33_apply, h33, val_main_v31_apply, h31,
    norm_w]
  rfl

open Idealize.ShloMosaic Cert.ReferenceIdeal in
/-- The reference's result is spelling R over whole arrays. -/
theorem ref_eq (x0 : (⟨S16384x1024, .f32⟩ : BufTy).Contents (Elt Ideal)) (x1 : (⟨S1024x1024, .f32⟩ : BufTy).Contents (Elt Ideal))
    (x2 : (⟨S256x1024, .f32⟩ : BufTy).Contents (Elt Ideal)) :
    Cert.ReferenceIdeal.Read.val_main_v35 (F := Ideal) x0 x1 x2 = Cert.Hash.arrR x0 x1 x2 := by
  funext j
  obtain ⟨b, q, rfl⟩ : ∃ (b : Fin 16384) (q : Fin 1024), j = ix2 b q := ⟨j 0, j 1, eq_ix2 j⟩
  rw [val_main_v35_apply, norms_at, cos_at, count_at]
  rfl

end Cert.Hash.Ref

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.HashAlgebra.lean ====
/-
  The two spellings of the hashed-projection product agree on finite rows.

  Every entry of X, W and P is the cast of a real number. Then:
    * the value of the zero word is 0, so starting the sum of squares from it changes nothing, and the two norms
      are the same extended real;
    * the value of the word 0x34000000 is the positive real 2^(-23), and a sum of squares of reals is a nonnegative
      real, so a row's norm is the cast of a POSITIVE real nu;
    * v - v = 0 for a finite v, so the two correction terms of the three-term projection vanish and it is the plain
      dot product;
    * dividing a row by nu > 0 divides its dot product with any finite row by nu, and S / nu >= 0 exactly when
      S >= 0; the hash bit reads only that sign test, so it does not see the division;
    * a dot product does not depend on the order of the two factors.
  Hence the agreement counts fed to the cosine estimate coincide term by term, and so do the results.
-/
import proofs.«167399_j85538568667753_2_alg».proof.Proof.Spec
import proofs.«167399_j85538568667753_2_alg».proof.Proof.LibFinite
import proofs.«167399_j85538568667753_2_alg».proof.Proof.LibRealSums
import Mathlib.Tactic

noncomputable section

namespace Cert.Hash

open Idealize.ShloMosaic Idealize.ShloMosaic.ValueIdx Cert.Finite

/-- The word 0x34000000 denotes a positive real (it is 2^(-23): sign 0, exponent field 104, significand field 0). -/
theorem eps_word_pos : ∃ e : ℝ, 0 < e ∧ Ideal.ofBits .f32 0x34000000#32 = (e : EReal) := by
  refine ⟨(2 : ℝ) ^ (-23 : Int), by positivity, ?_⟩
  simp [Ideal.ofBits, Ideal.ieee, -EReal.coe_mul]
  norm_num

/-- Starting the sum of squares from the value of the zero word is starting it from 0. -/
theorem rowNormR_eq_rowNorm {n : ℕ} (v : Fin n → EReal) : rowNormR v = rowNorm v := by
  unfold rowNormR rowNorm
  rw [Ideal.ofBits_zero_f32, zero_add]

/-- A dot product of casts is the cast of the real dot product. -/
theorem dot_coe {n : ℕ} (a p : Fin n → ℝ) :
    (∑ i, (a i : EReal) * (p i : EReal)) = ((∑ i, a i * p i : ℝ) : EReal) := by
  rw [Cert.RealSums.coe_sum]
  exact Finset.sum_congr rfl fun i _ => (EReal.coe_mul _ _).symm

/-- The norm of a row of casts is the cast of a positive real. -/
theorem rowNorm_coe_pos {n : ℕ} (a : Fin n → ℝ) :
    ∃ ν : ℝ, 0 < ν ∧ rowNorm (fun i => (a i : EReal)) = (ν : EReal) := by
  obtain ⟨e, he, hE⟩ := eps_word_pos
  refine ⟨Real.sqrt (∑ i, a i * a i) + e, add_pos_of_nonneg_of_pos (Real.sqrt_nonneg _) he, ?_⟩
  have h0 : ¬ (∑ i, a i * a i) < 0 := not_lt.2 (Finset.sum_nonneg fun i _ => mul_self_nonneg (a i))
  show Ideal.sqrt (∑ i, (a i : EReal) * (a i : EReal)) + Ideal.ofBits .f32 0x34000000#32 = _
  rw [dot_coe, Ideal.sqrt_coe, if_neg h0, hE, EReal.coe_add]

/-- The hash bit reads only the test 0 <= s. -/
theorem code_congr {s s' : EReal} (h : 0 ≤ s ↔ 0 ≤ s') : code s = code s' := by
  unfold code
  have hc : Ideal.cmp .oge s (Ideal.ofBits .f32 0x00000000#32)
      = Ideal.cmp .oge s' (Ideal.ofBits .f32 0x00000000#32) := by
    rw [Ideal.ofBits_zero_f32]
    show BitVec.ofBool (decide (0 ≤ s)) = BitVec.ofBool (decide (0 ≤ s'))
    rw [decide_eq_decide.2 h]
  rw [hc]

/-- On finite rows the three-term projection is the plain dot product: both correction terms are sums of zeros. -/
theorem projK_of_real {n : ℕ} (x p : Fin n → EReal) (hx : ∀ i, IsReal (x i)) (hp : ∀ i, IsReal (p i)) :
    projK x p = ∑ i, x i * p i := by
  unfold projK
  have h1 : (∑ i, x i * (p i - p i)) = 0 := Finset.sum_eq_zero fun i _ => by
    obtain ⟨r, hr⟩ := hp i
    rw [hr, ← EReal.coe_sub, sub_self, EReal.coe_zero, mul_zero]
  have h2 : (∑ i, (x i - x i) * p i) = 0 := Finset.sum_eq_zero fun i _ => by
    obtain ⟨r, hr⟩ := hx i
    rw [hr, ← EReal.coe_sub, sub_self, EReal.coe_zero, zero_mul]
  rw [h1, h2, add_zero, add_zero]

/-- Dividing the left row by a positive real divides the dot product by it. -/
theorem dot_div_coe {n : ℕ} (a p : Fin n → ℝ) {ν : ℝ} (hν : 0 < ν) :
    (∑ i, Ideal.div (a i : EReal) (ν : EReal) * (p i : EReal)) = (((∑ i, a i * p i) / ν : ℝ) : EReal) := by
  rw [Finset.sum_div, Cert.RealSums.coe_sum]
  refine Finset.sum_congr rfl fun i _ => ?_
  rw [Ideal.div_coe hν.ne', ← EReal.coe_mul, ← EReal.coe_mul]
  congr 1
  ring

/-- ... and that does not change the sign test. -/
theorem dot_div_nonneg_iff {n : ℕ} (a p : Fin n → ℝ) {ν : ℝ} (hν : 0 < ν) :
    (0 ≤ ∑ i, Ideal.div (a i : EReal) (ν : EReal) * (p i : EReal)) ↔ 0 ≤ ∑ i, (a i : EReal) * (p i : EReal) := by
  rw [dot_div_coe a p hν, dot_coe, EReal.coe_nonneg, EReal.coe_nonneg, le_div_iff₀ hν, zero_mul]

/-- The hash bit of the projection of a finite row divided by its own norm is that of the row itself. -/
theorem code_dot_div_rowNorm {n : ℕ} (v p : Fin n → EReal) (hv : ∀ i, IsReal (v i)) (hp : ∀ i, IsReal (p i)) :
    code (∑ i, Ideal.div (v i) (rowNorm v) * p i) = code (∑ i, v i * p i) := by
  choose a ha using hv
  choose c hc using hp
  obtain rfl : v = fun i => (a i : EReal) := funext ha
  obtain rfl : p = fun i => (c i : EReal) := funext hc
  obtain ⟨ν, hν, hN⟩ := rowNorm_coe_pos a
  rw [hN]
  exact code_congr (dot_div_nonneg_iff a c hν)

open Cert.Finite in
theorem outK_eq_outR (X : Fin 16384 → Fin 1024 → EReal) (W : Fin 1024 → Fin 1024 → EReal) (P : Fin 256 → Fin 1024 → EReal)
    (hX : ∀ b i, IsReal (X b i)) (hW : ∀ q i, IsReal (W q i)) (hP : ∀ k i, IsReal (P k i))
    (b : Fin 16384) (q : Fin 1024) : outK X W P b q = outR X W P b q := by
  unfold outK outR
  rw [rowNormR_eq_rowNorm, rowNormR_eq_rowNorm]
  refine congrArg (fun d => rowNorm (X b) * rowNorm (W q) * cosEst d) ?_
  refine Finset.sum_congr rfl fun k _ => ?_
  have hx : code (projK (X b) (P k)) = code (∑ i, Ideal.div (X b i) (rowNorm (X b)) * P k i) := by
    rw [projK_of_real (X b) (P k) (hX b) (hP k)]
    exact (code_dot_div_rowNorm (X b) (P k) (hX b) (hP k)).symm
  have hw : code (∑ i, P k i * W q i) = code (∑ i, Ideal.div (W q i) (rowNorm (W q)) * P k i) := by
    rw [code_dot_div_rowNorm (W q) (P k) (hW q) (hP k)]
    exact congrArg code (Finset.sum_congr rfl fun i _ => mul_comm _ _)
  rw [hx, hw]

open Cert.Finite Idealize.ShloMosaic in
theorem arrK_eq_arrR (x : (⟨2, ![16384, 1024]⟩ : Shape).Idx → EReal) (w : (⟨2, ![1024, 1024]⟩ : Shape).Idx → EReal)
    (P : (⟨2, ![256, 1024]⟩ : Shape).Idx → EReal) (hx : ∀ i, IsReal (x i)) (hw : ∀ i, IsReal (w i)) (hP : ∀ i, IsReal (P i)) :
    arrK x w P = arrR x w P := by
  funext j
  unfold arrK arrR
  exact outK_eq_outR (rows x) (rows w) (rows P) (fun p i => hx (ix2 p i)) (fun p i => hw (ix2 p i))
    (fun p i => hP (ix2 p i)) _ _

end Cert.Hash

end
-- ==== Proof.LibAllFinite.lean ====
/-
  A precondition's "every entry is finite" test, read back at an entry.

  A printed precondition tests an array by comparing each entry's absolute value against the value of the word
  0x7F800000, which is +inf, and folding the comparisons with "and" into one bit. When that bit is 1 every comparison
  is 1; an extended real whose absolute value is strictly below +inf is neither infinity, so it is the cast of a
  real number. Stated for an array of any shape reduced over any axes into a single bit.
-/
import proofs.«167399_j85538568667753_2_alg».proof.Proof.LibFinite
import Idealize.ShloMosaic.Lib.ReduceAll
import Idealize.ShloMosaic.Lib.ValueIdx
import Idealize.ShloMosaic.Lib.Pipeline.Value
import Idealize.ShloMosaic.PureOps.Ideal.Laws

noncomputable section

namespace Cert.Lib.AllFinite

open Idealize.ShloMosaic Idealize.ShloMosaic.ValueIdx Cert.Finite

/-- The shape of a single bit has one index. -/
instance : Subsingleton (⟨0, ![]⟩ : Shape).Idx := ⟨fun a b => funext fun d => d.elim0⟩

/-- The word 0x7F800000 denotes +inf. -/
theorem inf_word : Ideal.ofBits .f32 0x7F800000#32 = ⊤ := by
  simp [Ideal.ofBits, Ideal.ieee]

/-- An extended real whose absolute value compares below +inf is the cast of a real. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One array's test, read at an index: if the fold by "and" of the comparisons |a_i| < +inf, started from 1, is 1,
    then every entry of the array is the cast of a real. -/
theorem entry_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  have h := Host.reduce_andi_all _ _ hr hu j e i
  refine isReal_of_abs_lt (a i) ?_
  rw [cmpf_apply, broadcastInDim_apply _ hb _ i (fun d => d.elim0) (fun d => d.elim0)] at h
  exact h

end Cert.Lib.AllFinite

end
-- ==== Proof.FiniteInputs.lean ====
/-
  Finite inputs. The precondition tests each of the three argument arrays ("every entry's absolute value is below
  +inf") and joins the three bits by "and"; when the result is 1 each test is 1, so every entry of X, W and P is the
  cast of a real number.
-/
import proofs.«167399_j85538568667753_2_alg».proof.Pre_finite_inputs
import proofs.«167399_j85538568667753_2_alg».proof.Proof.LibAllFinite

noncomputable section

namespace Cert.Hash.Inputs

open Idealize.ShloMosaic Idealize.ShloMosaic.ValueIdx Cert.Finite Cert.Pre_finite_inputs Cert.Lib.AllFinite

variable [Facts]

/-- Under the precondition every entry of the three argument arrays is the cast of a real. -/
theorem finite_of_pre (a0 : FVec Ideal S16384x1024 .f32) (a1 : FVec Ideal S1024x1024 .f32) (a2 : FVec Ideal S256x1024 .f32)
    (h : fn (F := Ideal) a0 a1 a2 = fun _ => 1#1) :
    (∀ i, IsReal (a0 i)) ∧ (∀ i, IsReal (a1 i)) ∧ (∀ i, IsReal (a2 i)) := by
  have h0 := congrFun h ix0
  dsimp only [fn] at h0
  obtain ⟨h01, h2⟩ := IntOp.andi_eq_one.1 h0
  obtain ⟨h0', h1⟩ := IntOp.andi_eq_one.1 h01
  exact ⟨entry_of_all a0 _ _ _ _ h0', entry_of_all a1 _ _ _ _ h1, entry_of_all a2 _ _ _ _ h2⟩

end Cert.Hash.Inputs

end
-- ==== Proof.lean ====
/-
  The hashed-projection product (an LSH estimate of X Wᵀ): kernel against reference, at the extended reals.

  Both programs compute, for row x_b of X and row w_q of W (P holding 256 random directions p_k),

      (‖x_b‖ + eps) · (‖w_q‖ + eps) · cos(h · (1 − (Σ_k code(x_b, p_k) · code(w_q, p_k)) / 256)),

  where code(v, p) is +1 if the projection of v on p is at least zero and −1 otherwise. They differ in how the
  projection inside `code` is formed. The reference divides each row by its norm before projecting it. The kernel
  projects the rows as they are, in two launches (W's hash bits and norms first, then X block by block), and projects
  x_b by the three-term sum ⟨x, p⟩ + ⟨x, p − p⟩ + ⟨x − x, p⟩ that a split of every operand into a leading part and a
  remainder leaves once a change of float format is the identity. On finite inputs the two agree: v − v = 0 for a finite
  v, so the three-term sum is ⟨x, p⟩; a norm plus eps is a positive real, and dividing a row by a positive real does not
  change the sign of its projection; and the sum of squares started from the zero word is the sum of squares.

  The pieces: `Proof/Spec.lean` states both spellings; `Proof/HashAlgebra.lean` proves them equal on finite rows;
  `Proof/Payloads.lean` reads the two kernel bodies' stores at an index; `Proof/FirstLaunch.lean` and
  `Proof/SecondLaunch.lean` turn what each launch's points write back into its output arrays;
  `Proof/KernelRun.lean` and `Proof/KernelValue.lean` run the two launches and name the result;
  `Proof/RefValue.lean` reads the reference's result at an index; `Proof/FiniteInputs.lean` turns the precondition
  into "every entry is the cast of a real".
-/
import proofs.«167399_j85538568667753_2_alg».proof.Defs
import proofs.«167399_j85538568667753_2_alg».proof.Proof.Gen.Kernel
import proofs.«167399_j85538568667753_2_alg».proof.Proof.Gen.Kernel.Skeleton
import proofs.«167399_j85538568667753_2_alg».proof.Proof.Gen.Kernel.Launch
import proofs.«167399_j85538568667753_2_alg».proof.Proof.Gen.Kernel.Points
import proofs.«167399_j85538568667753_2_alg».proof.Proof.Gen.Kernel.Frame
import proofs.«167399_j85538568667753_2_alg».proof.Proof.Gen.KernelIdeal
import proofs.«167399_j85538568667753_2_alg».proof.Proof.Gen.KernelIdeal.Skeleton
import proofs.«167399_j85538568667753_2_alg».proof.Proof.Gen.KernelIdeal.Launch
import proofs.«167399_j85538568667753_2_alg».proof.Proof.Gen.KernelIdeal.Points
import proofs.«167399_j85538568667753_2_alg».proof.Proof.Gen.KernelIdeal.Frame
import proofs.«167399_j85538568667753_2_alg».proof.Proof.Gen.ReferenceIdeal
import proofs.«167399_j85538568667753_2_alg».proof.Proof.Gen.Pre_finite_inputs
import proofs.«167399_j85538568667753_2_alg».proof.Proof.Gen.ReferenceIdeal.Run
import proofs.«167399_j85538568667753_2_alg».proof.Proof.Gen.ReferenceIdeal.Read
import proofs.«167399_j85538568667753_2_alg».proof.Proof.KernelValue
import proofs.«167399_j85538568667753_2_alg».proof.Proof.RefValue
import proofs.«167399_j85538568667753_2_alg».proof.Proof.HashAlgebra
import proofs.«167399_j85538568667753_2_alg».proof.Proof.FiniteInputs
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two rewrites of the idealization: narrowing X's block, and P, to sixteen bits and widening them back is the
    identity on extended reals. -/
theorem preserves : Cert.preserves_Kernel_KernelIdeal :=
  ⟨IdealRules.truncf_extf.statement Cert.KernelIdeal.S1024x1024 .f32 .bf16,
   IdealRules.truncf_extf.statement Cert.KernelIdeal.S256x1024 .f32 .bf16⟩

/-- On finite inputs the kernel's result array and the reference's are one function of the arguments: the first spelling
    for the kernel, the second for the reference, equal on finite rows. -/
theorem algebraic : Cert.algebraic_KernelIdeal_ReferenceIdeal := by
  intro m ρ m' ρ' hpre hagree
  refine ⟨fun c => Cert.Hash.arrK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Hash.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Hash.Inputs.finite_of_pre _ _ _ (hpre c)
  rw [(hagree c).1, (hagree c).2.1, (hagree c).2.2, Cert.ReferenceIdeal.Read.val_main_v35_eq, Cert.Hash.Ref.ref_eq]
  exact (Cert.Hash.arrK_eq_arrR _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
